-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x6 : Shape := ⟨2, ![2097152, 6]⟩
abbrev S_ : Shape := ⟨0, ![]⟩

class Facts : Prop where
  bcast_S_S2097152x6 : S_.BroadcastsInDim S2097152x6 (![] : Fin 0 → Fin S2097152x6.rank)
  reducesTo_S2097152x6_S_d0_1 : S2097152x6.ReducesTo [0, 1] S_
  h_S_ : 0 < S_.numel

variable [Facts]

def fn {F : FTy → Type} [FloatOps F] (main_arg0 : FVec F S2097152x6 .f32) : IVec S_ 1 :=
  let main_v0 : FVec F S2097152x6 .f32 := Host.absf main_arg0
  let main_cst : FVec F S_ .f32 := constant S_ .f32 0x7F800000#32
  let main_v1 : FVec F S2097152x6 .f32 := broadcastInDim S2097152x6 ![] bcast_S_S2097152x6 main_cst
  let main_v2 : IVec S2097152x6 1 := cmpf .olt main_v0 main_v1
  let main_c : IVec S_ 1 := constantI S_ 1 1#1
  let main_v3 : IVec S_ 1 := (fun x v => Host.reduce IntOp.andi x v reducesTo_S2097152x6_S_d0_1 h_S_) main_v2 main_c
  main_v3
-- ==== Kernel.lean ====
abbrev S2097152x6 : Shape := ⟨2, ![2097152, 6]⟩
abbrev S2097152x16 : Shape := ⟨2, ![2097152, 16]⟩
abbrev S1024x6 : Shape := ⟨2, ![1024, 6]⟩
abbrev S1024x16 : Shape := ⟨2, ![1024, 16]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S2097152x6, .f32⟩
  | .hbm, ⟨1, _⟩ => ⟨S2097152x16, .f32⟩
  | .local _ .vmem, ⟨0, _⟩ => ⟨S1024x6, .f32⟩
  | .local _ .vmem, ⟨1, _⟩ => ⟨S1024x6, .f32⟩
  | .local _ .vmem, ⟨2, _⟩ => ⟨S1024x16, .f32⟩
  | .local _ .vmem, ⟨3, _⟩ => ⟨S1024x16, .f32⟩
  | _, _ => ⟨S2097152x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x6_S1024x6_0_0 : ∀ a, (![0, 0] : Fin 2 → Nat) a + S1024x6.size a ≤ S1024x6.size a
  h_S1024x6 : 0 < S1024x6.numel
  slices_S1024x6_o0_0_S1024x1 : S1024x6.Slices ![0, 0] S1024x1
  slices_S1024x6_o0_1_S1024x1 : S1024x6.Slices ![0, 1] S1024x1
  slices_S1024x6_o0_2_S1024x1 : S1024x6.Slices ![0, 2] S1024x1
  slices_S1024x6_o0_3_S1024x1 : S1024x6.Slices ![0, 3] S1024x1
  slices_S1024x6_o0_4_S1024x1 : S1024x6.Slices ![0, 4] S1024x1
  slices_S1024x6_o0_5_S1024x1 : S1024x6.Slices ![0, 5] S1024x1
  concatenates_S1024x1_S1024x1_S1024x1_S1024x1_S1024x1_S1024x1_S1024x1_S1024x1_S1024x1_S1024x1_S1024x1_S1024x1_S1024x1_S1024x1_S1024x1_S1024x1_S1024x16_d1 : Shape.Concatenates [S1024x1, S1024x1, S1024x1, S1024x1, S1024x1, S1024x1, S1024x1, S1024x1, S1024x1, S1024x1, S1024x1, S1024x1, S1024x1, S1024x1, S1024x1, S1024x1] S1024x16 1
  inb_S1024x16_S1024x16_0_0 : ∀ a, (![0, 0] : Fin 2 → Nat) a + S1024x16.size a ≤ S1024x16.size a
  h_S1024x16 : 0 < S1024x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x6.size a ≤ S2097152x6.size a
  hwx0_0 : ∀ i : grid0.Coords, EltTy.bits .f32 = 32 ∨ (Rect.block (s := S2097152x6) S1024x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S2097152x16.size a
  hwx0_1 : ∀ i : grid0.Coords, EltTy.bits .f32 = 32 ∨ (Rect.block (s := S2097152x16) S1024x16.size (cc0_transform_1 i) (hinb0_1 i)).WholeWords (EltTy.packing .f32)

variable [Facts₀]

abbrev win0_0 : Pipeline.Window sig grid0 :=
  Pipeline.Window.ofSpec (Memref.whole main_arg0) S1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2097152x6 : Shape := ⟨2, ![2097152, 6]⟩
abbrev S2097152x3 : Shape := ⟨2, ![2097152, 3]⟩
abbrev S_ : Shape := ⟨0, ![]⟩
abbrev S2097152x1 : Shape := ⟨2, ![2097152, 1]⟩
abbrev S2097152 : Shape := ⟨1, ![2097152]⟩
abbrev S2097152x4 : Shape := ⟨2, ![2097152, 4]⟩
abbrev S2097152x4x1 : Shape := ⟨3, ![2097152, 4, 1]⟩
abbrev S2097152x4x4 : Shape := ⟨3, ![2097152, 4, 4]⟩
abbrev S4x4 : Shape := ⟨2, ![4, 4]⟩
abbrev S1x4x4 : Shape := ⟨3, ![1, 4, 4]⟩
abbrev S2097152x1x1 : Shape := ⟨3, ![2097152, 1, 1]⟩
abbrev S2097152x16 : Shape := ⟨2, ![2097152, 16]⟩

abbrev nBuf : Space → Nat
  | .hbm => 106
  | .vmem => 0
  | .smem => 0
  | _ => 0

abbrev bufTy : (tb : Table) → Fin (tcTables nBuf tb) → BufTy
  | .hbm, ⟨0, _⟩ => ⟨S2097152x6, .f32⟩
  | .hbm, ⟨1, _⟩ => ⟨S2097152x3, .f32⟩
  | .hbm, ⟨2, _⟩ => ⟨S_, .f32⟩
  | .hbm, ⟨3, _⟩ => ⟨S2097152x3, .f32⟩
  | .hbm, ⟨4, _⟩ => ⟨S2097152x3, .f32⟩
  | .hbm, ⟨5, _⟩ => ⟨S2097152x3, .f32⟩
  | .hbm, ⟨6, _⟩ => ⟨S_, .f32⟩
  | .hbm, ⟨7, _⟩ => ⟨S2097152x3, .f32⟩
  | .hbm, ⟨8, _⟩ => ⟨S2097152x3, .f32⟩
  | .hbm, ⟨9, _⟩ => ⟨S2097152x1, .f32⟩
  | .hbm, ⟨10, _⟩ => ⟨S2097152, .f32⟩
  | .hbm, ⟨11, _⟩ => ⟨S2097152x1, .f32⟩
  | .hbm, ⟨12, _⟩ => ⟨S2097152, .f32⟩
  | .hbm, ⟨13, _⟩ => ⟨S2097152x1, .f32⟩
  | .hbm, ⟨14, _⟩ => ⟨S2097152, .f32⟩
  | .hbm, ⟨15, _⟩ => ⟨S_, .f32⟩
  | .hbm, ⟨16, _⟩ => ⟨S2097152, .f32⟩
  | .hbm, ⟨17, _⟩ => ⟨S2097152, .f32⟩
  | .hbm, ⟨18, _⟩ => ⟨S2097152x1, .f32⟩
  | .hbm, ⟨19, _⟩ => ⟨S2097152x1, .f32⟩
  | .hbm, ⟨20, _⟩ => ⟨S2097152x1, .f32⟩
  | .hbm, ⟨21, _⟩ => ⟨S2097152x1, .f32⟩
  | .hbm, ⟨22, _⟩ => ⟨S2097152x4, .f32⟩
  | .hbm, ⟨23, _⟩ => ⟨S2097152, .f32⟩
  | .hbm, ⟨24, _⟩ => ⟨S2097152x1, .f32⟩
  | .hbm, ⟨25, _⟩ => ⟨S2097152x1, .f32⟩
  | .hbm, ⟨26, _⟩ => ⟨S2097152x1, .f32⟩
  | .hbm, ⟨27, _⟩ => ⟨S2097152x1, .f32⟩
  | .hbm, ⟨28, _⟩ => ⟨S2097152x4, .f32⟩
  | .hbm, ⟨29, _⟩ => ⟨S2097152, .f32⟩
  | .hbm, ⟨30, _⟩ => ⟨S2097152x1, .f32⟩
  | .hbm, ⟨31, _⟩ => ⟨S2097152x1, .f32⟩
  | .hbm, ⟨32, _⟩ => ⟨S2097152x1, .f32⟩
  | .hbm, ⟨33, _⟩ => ⟨S2097152x1, .f32⟩
  | .hbm, ⟨34, _⟩ => ⟨S2097152x4, .f32⟩
  | .hbm, ⟨35, _⟩ => ⟨S2097152x1, .f32⟩
  | .hbm, ⟨36, _⟩ => ⟨S2097152, .f32⟩
  | .hbm, ⟨37, _⟩ => ⟨S2097152x1, .f32⟩
  | .hbm, ⟨38, _⟩ => ⟨S2097152, .f32⟩
  | .hbm, ⟨39, _⟩ => ⟨S2097152x1, .f32⟩
  | .hbm, ⟨40, _⟩ => ⟨S2097152, .f32⟩
  | .hbm, ⟨41, _⟩ => ⟨S2097152x1, .f32⟩
  | .hbm, ⟨42, _⟩ => ⟨S2097152x1, .f32⟩
  | .hbm, ⟨43, _⟩ => ⟨S2097152x1, .f32⟩
  | .hbm, ⟨44, _⟩ => ⟨S2097152x1, .f32⟩
  | .hbm, ⟨45, _⟩ => ⟨S2097152x4, .f32⟩
  | .hbm, ⟨46, _⟩ => ⟨S2097152x4x1, .f32⟩
  | .hbm, ⟨47, _⟩ => ⟨S2097152x4x1, .f32⟩
  | .hbm, ⟨48, _⟩ => ⟨S2097152x4x1, .f32⟩
  | .hbm, ⟨49, _⟩ => ⟨S2097152x4x1, .f32⟩
  | .hbm, ⟨50, _⟩ => ⟨S2097152x4x4, .f32⟩
  | .hbm, ⟨51, _⟩ => ⟨S2097152x4x4, .f32⟩
  | .hbm, ⟨52, _⟩ => ⟨S2097152x4x4, .f32⟩
  | .hbm, ⟨53, _⟩ => ⟨S2097152x3, .f32⟩
  | .hbm, ⟨54, _⟩ => ⟨S_, .f32⟩
  | .hbm, ⟨55, _⟩ => ⟨S2097152, .f32⟩
  | .hbm, ⟨56, _⟩ => ⟨S_, .f32⟩
  | .hbm, ⟨57, _⟩ => ⟨S2097152, .f32⟩
  | .hbm, ⟨58, _⟩ => ⟨S2097152, .i1⟩
  | .hbm, ⟨59, _⟩ => ⟨S_, .f32⟩
  | .hbm, ⟨60, _⟩ => ⟨S_, .f32⟩
  | .hbm, ⟨61, _⟩ => ⟨S2097152, .f32⟩
  | .hbm, ⟨62, _⟩ => ⟨S2097152, .f32⟩
  | .hbm, ⟨63, _⟩ => ⟨S2097152, .f32⟩
  | .hbm, ⟨64, _⟩ => ⟨S_, .f32⟩
  | .hbm, ⟨65, _⟩ => ⟨S2097152, .f32⟩
  | .hbm, ⟨66, _⟩ => ⟨S2097152, .f32⟩
  | .hbm, ⟨67, _⟩ => ⟨S_, .f32⟩
  | .hbm, ⟨68, _⟩ => ⟨S2097152, .f32⟩
  | .hbm, ⟨69, _⟩ => ⟨S2097152, .f32⟩
  | .hbm, ⟨70, _⟩ => ⟨S2097152, .f32⟩
  | .hbm, ⟨71, _⟩ => ⟨S_, .f32⟩
  | .hbm, ⟨72, _⟩ => ⟨S2097152, .f32⟩
  | .hbm, ⟨73, _⟩ => ⟨S2097152, .f32⟩
  | .hbm, ⟨74, _⟩ => ⟨S2097152, .f32⟩
  | .hbm, ⟨75, _⟩ => ⟨S2097152, .f32⟩
  | .hbm, ⟨76, _⟩ => ⟨S_, .f32⟩
  | .hbm, ⟨77, _⟩ => ⟨S2097152, .f32⟩
  | .hbm, ⟨78, _⟩ => ⟨S2097152, .f32⟩
  | .hbm, ⟨79, _⟩ => ⟨S_, .f32⟩
  | .hbm, ⟨80, _⟩ => ⟨S2097152, .f32⟩
  | .hbm, ⟨81, _⟩ => ⟨S2097152, .f32⟩
  | .hbm, ⟨82, _⟩ => ⟨S2097152, .f32⟩
  | .hbm, ⟨83, _⟩ => ⟨S2097152, .f32⟩
  | .hbm, ⟨84, _⟩ => ⟨S2097152, .f32⟩
  | .hbm, ⟨85, _⟩ => ⟨S2097152, .f32⟩
  | .hbm, ⟨86, _⟩ => ⟨S2097152, .f32⟩
  | .hbm, ⟨87, _⟩ => ⟨S4x4, .i32⟩
  | .hbm, ⟨88, _⟩ => ⟨S4x4, .i32⟩
  | .hbm, ⟨89, _⟩ => ⟨S_, .i32⟩
  | .hbm, ⟨90, _⟩ => ⟨S4x4, .i32⟩
  | .hbm, ⟨91, _⟩ => ⟨S4x4, .i32⟩
  | .hbm, ⟨92, _⟩ => ⟨S4x4, .i1⟩
  | .hbm, ⟨93, _⟩ => ⟨S4x4, .f32⟩
  | .hbm, ⟨94, _⟩ => ⟨S1x4x4, .f32⟩
  | .hbm, ⟨95, _⟩ => ⟨S2097152x4x4, .f32⟩
  | .hbm, ⟨96, _⟩ => ⟨S2097152x4x4, .f32⟩
  | .hbm, ⟨97, _⟩ => ⟨S2097152x1x1, .f32⟩
  | .hbm, ⟨98, _⟩ => ⟨S2097152x4x4, .f32⟩
  | .hbm, ⟨99, _⟩ => ⟨S2097152x4x4, .f32⟩
  | .hbm, ⟨100, _⟩ => ⟨S2097152x4x4, .f32⟩
  | .hbm, ⟨101, _⟩ => ⟨S2097152x1x1, .f32⟩
  | .hbm, ⟨102, _⟩ => ⟨S2097152x4x4, .f32⟩
  | .hbm, ⟨103, _⟩ => ⟨S2097152x4x4, .f32⟩
  | .hbm, ⟨104, _⟩ => ⟨S2097152x4x4, .f32⟩
  | .hbm, ⟨105, _⟩ => ⟨S2097152x16, .f32⟩
  | _, _ => ⟨S2097152x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_2 : Ref sig .tc := ⟨.hbm, 54, rfl⟩
abbrev main_v50 : Ref sig .tc := ⟨.hbm, 55, rfl⟩
abbrev main_cst_3 : Ref sig .tc := ⟨.hbm, 56, rfl⟩
abbrev main_v51 : Ref sig .tc := ⟨.hbm, 57, rfl⟩
abbrev main_v52 : Ref sig .tc := ⟨.hbm, 58, rfl⟩
abbrev main_cst_4 : Ref sig .tc := ⟨.hbm, 59, rfl⟩
abbrev main_call0_v0 : Ref sig .tc := ⟨.hbm, 60, rfl⟩
abbrev main_call0_v1 : Ref sig .tc := ⟨.hbm, 61, rfl⟩
abbrev main_v53 : Ref sig .tc := ⟨.hbm, 62, rfl⟩
abbrev main_v54 : Ref sig .tc := ⟨.hbm, 63, rfl⟩
abbrev main_cst_5 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_cst_9 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_c : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩

abbrev nD : Nat := 1
abbrev τ : Topo := Topo.v7x

variable {F : FTy → Type} [FloatOps F]

class Facts₀ : Prop where
  slices_S2097152x6_S2097152x3_0_0 : S2097152x6.Slices ![0, 0] S2097152x3
  bcast_S_S2097152x3 : S_.BroadcastsInDim S2097152x3 (![] : Fin 0 → Fin S2097152x3.rank)
  slices_S2097152x6_S2097152x3_0_3 : S2097152x6.Slices ![0, 3] S2097152x3
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x1_S2097152x1_S2097152x4_d1 : Shape.Concatenates [S2097152x1, S2097152x1, S2097152x1, S2097152x1] S2097152x4 1
  bcast_S2097152x4_S2097152x4x1_0_1 : S2097152x4.BroadcastsInDim S2097152x4x1 (![0, 1] : Fin 2 → Fin S2097152x4x1.rank)
  concatenates_S2097152x4x1_S2097152x4x1_S2097152x4x1_S2097152x4x1_S2097152x4x4_d2 : Shape.Concatenates [S2097152x4x1, S2097152x4x1, S2097152x4x1, S2097152x4x1] S2097152x4x4 2
  reducesTo_S2097152x3_S2097152_d1 : S2097152x3.ReducesTo [1] S2097152
  h_S_ : 0 < S_.numel
  bcast_S_S4x4 : S_.BroadcastsInDim S4x4 (![] : Fin 0 → Fin S4x4.rank)
  bcast_S4x4_S1x4x4_1_2 : S4x4.BroadcastsInDim S1x4x4 (![1, 2] : Fin 2 → Fin S1x4x4.rank)
  bcast_S1x4x4_S2097152x4x4_0_1_2 : S1x4x4.BroadcastsInDim S2097152x4x4 (![0, 1, 2] : Fin 3 → Fin S2097152x4x4.rank)
  bcast_S2097152_S2097152x1x1_0 : S2097152.BroadcastsInDim S2097152x1x1 (![0] : Fin 1 → Fin S2097152x1x1.rank)
  bcast_S2097152x1x1_S2097152x4x4_0_1_2 : S2097152x1x1.BroadcastsInDim S2097152x4x4 (![0, 1, 2] : Fin 3 → Fin S2097152x4x4.rank)
  shapeCasts_S2097152x4x4_S2097152x16 : S2097152x4x4.ShapeCasts S2097152x16
  dot_S2097152x4x4_S2097152x4x4_S2097152x4x4_2_1_1_2_0_0_wf : DotDims.WF S2097152x4x4 S2097152x4x4 S2097152x4x4 [2] [1] [1] [2] [0] [0]

variable [Facts₀]

def dot_S2097152x4x4_S2097152x4x4_S2097152x4x4_2_1_1_2_0_0 : DotDims S2097152x4x4 S2097152x4x4 S2097152x4x4 where
  lhsContracting := [2]
  rhsContracting := [1]
  lhsNonContracting := [1]
  rhsNonContracting := [2]
  lhsBatch := [0]
  rhsBatch := [0]
  wf := dot_S2097152x4x4_S2097152x4x4_S2097152x4x4_2_1_1_2_0_0_wf

class Facts : Prop extends Facts₀ where

variable [Facts]
-- ==== Proof.TwistAlgebra.lean ====
/-
  The mathematics of the twist-to-matrix map, on the extended reals, with no program in sight.

  A twist is a row (x0, x1, x2, x3, x4, x5): a rotation vector w = (x0, x1, x2) and a translation t = (x3, x4, x5).
  Its hat matrix is the 4×4 matrix A = [[W, t], [0, 0]] with W the skew matrix of w, and the result is the flattened
  E = I + A + c2 · A² + c3 · A³ with c2 = (1 - cos θ)/θ², c3 = (θ - sin θ)/θ³, θ² = |w|² (a series value below a
  threshold). `refEntry` is E entry by entry with A² and A³ as honest matrix products; `kernelEntry` is the closed form
  that uses W² = w wᵀ - θ² I and W³ = -θ² W:  R = (1 - c2 θ²) I + (1 - c3 θ²) W + c2 w wᵀ and
  V t = (1 - c3 θ²) t + c2 (w × t) + c3 (w · t) w. Both are polynomials in the six entries and in c2, c3, and they are
  equal as polynomials; on the extended reals a polynomial identity needs every factor to be a real number
  (distributivity fails at ±∞), so `entries_agree` is stated for real entries, where c2 and c3 are real as well
  (`c2_real`, `c3_real`: the denominators θ² and θ³ are not zero above the threshold, which is positive).
-/
import Idealize.ShloMosaic.Lib.IdealHost
import Mathlib.Tactic

noncomputable section

open scoped BigOperators

namespace Cert.Twist

open Idealize.ShloMosaic

/-! ## The constants the two programs spell -/

abbrev lit0 : EReal := Ideal.ofBits .f32 0x00000000#32
abbrev lit1 : EReal := Ideal.ofBits .f32 0x3F800000#32
abbrev litHalf : EReal := Ideal.ofBits .f32 0x3F000000#32
abbrev litSixth : EReal := Ideal.ofBits .f32 0x3E2AAAAB#32
abbrev lit24 : EReal := Ideal.ofBits .f32 0x41C00000#32
abbrev lit120 : EReal := Ideal.ofBits .f32 0x42F00000#32
abbrev litSmall : EReal := Ideal.ofBits .f32 0x322BCC77#32

theorem lit0_eq : lit0 = ((0 : ℝ) : EReal) := by
  show Ideal.ofBits .f32 0x00000000#32 = _
  rw [Ideal.ofBits_zero_f32]; rfl

theorem lit1_eq : lit1 = ((1 : ℝ) : EReal) := by
  show Ideal.ofBits .f32 0x3F800000#32 = _
  rw [Ideal.ofBits_one_f32]; rfl

/-- `24.0` denotes the real 24. -/
theorem lit24_eq : lit24 = ((24 : ℝ) : EReal) := by
  show Ideal.ofBits .f32 0x41C00000#32 = _
  simp [Ideal.ofBits, Ideal.ieee, -EReal.coe_mul]; norm_num

/-- `120.0` denotes the real 120. -/
theorem lit120_eq : lit120 = ((120 : ℝ) : EReal) := by
  show Ideal.ofBits .f32 0x42F00000#32 = _
  simp [Ideal.ofBits, Ideal.ieee, -EReal.coe_mul]; norm_num

/-- `0.5` denotes a real number. -/
theorem litHalf_real : ∃ h : ℝ, litHalf = (h : EReal) := by
  refine ⟨1 / 2, ?_⟩
  show Ideal.ofBits .f32 0x3F000000#32 = _
  simp [Ideal.ofBits, Ideal.ieee, -EReal.coe_mul]; norm_num

/-- The single-precision value nearest 1/6 denotes a real number. -/
theorem litSixth_real : ∃ q : ℝ, litSixth = (q : EReal) := by
  refine ⟨11184811 / 67108864, ?_⟩
  show Ideal.ofBits .f32 0x3E2AAAAB#32 = _
  simp [Ideal.ofBits, Ideal.ieee, -EReal.coe_mul]; norm_num

/-- The small-angle threshold (the single-precision value nearest 1e-8) denotes a POSITIVE real number. -/
theorem litSmall_pos : ∃ s : ℝ, 0 < s ∧ litSmall = (s : EReal) := by
  refine ⟨11258999 / 1125899906842624, by norm_num, ?_⟩
  show Ideal.ofBits .f32 0x322BCC77#32 = _
  simp [Ideal.ofBits, Ideal.ieee, -EReal.coe_mul]; norm_num

/-! ## The two coefficients -/

/-- θ² below the threshold: the small-angle branch is taken. -/
def small (t : EReal) : BitVec 1 := Ideal.cmp .olt t litSmall

/-- The denominator made safe: 1 on the small-angle branch, θ² otherwise. -/
def safe (t : EReal) : EReal := Scalar.select (small t) lit1 t

/-- c2 = (1 - cos θ)/θ², or two terms of its series for a small angle. -/
def c2 (t : EReal) : EReal :=
  Scalar.select (small t) (litHalf - Ideal.div t lit24)
    (Ideal.div (lit1 - Ideal.cos (Ideal.sqrt (safe t))) (safe t))

/-- c3 = (θ - sin θ)/θ³, or two terms of its series for a small angle. -/
def c3 (t : EReal) : EReal :=
  Scalar.select (small t) (litSixth - Ideal.div t lit120)
    (Ideal.div (Ideal.sqrt (safe t) - Ideal.sin (Ideal.sqrt (safe t))) (safe t * Ideal.sqrt (safe t)))

theorem small_coe {s : ℝ} (hs : litSmall = (s : EReal)) (τ : ℝ) :
    small (τ : EReal) = if τ < s then 1 else 0 := by
  unfold small Ideal.cmp
  rw [hs]
  by_cases h : τ < s
  · simp [h, EReal.coe_lt_coe_iff]
  · simp [h, EReal.coe_lt_coe_iff]

/-- For a real θ² ≥ 0 the coefficient c2 is a real number: off the small-angle branch θ² is at least the positive
    threshold, so the quotient's denominator is not zero. -/
theorem c2_real (τ : ℝ) (hτ : 0 ≤ τ) : ∃ k : ℝ, c2 (τ : EReal) = (k : EReal) := by
  obtain ⟨s, hs0, hs⟩ := litSmall_pos
  obtain ⟨h, hh⟩ := litHalf_real
  unfold c2 safe
  rw [small_coe hs τ]
  by_cases hlt : τ < s
  · refine ⟨h - τ * (1 / 24), ?_⟩
    rw [if_pos hlt]
    show litHalf - Ideal.div (τ : EReal) lit24 = _
    rw [hh, lit24_eq, Ideal.div_coe (by norm_num : (24 : ℝ) ≠ 0)]
    norm_cast
  · have hτ0 : τ ≠ 0 := by
      intro h0; apply hlt; rw [h0]; exact hs0
    refine ⟨(1 - Real.cos (Real.sqrt τ)) * (1 / τ), ?_⟩
    rw [if_neg hlt]
    show Ideal.div (lit1 - Ideal.cos (Ideal.sqrt (τ : EReal))) (τ : EReal) = _
    rw [Ideal.sqrt_coe, if_neg (not_lt.mpr hτ), Ideal.cos_coe, lit1_eq, Ideal.div_coe hτ0]
    norm_cast

/-- Likewise c3: its denominator θ² · θ is not zero off the small-angle branch. -/
theorem c3_real (τ : ℝ) (hτ : 0 ≤ τ) : ∃ k : ℝ, c3 (τ : EReal) = (k : EReal) := by
  obtain ⟨s, hs0, hs⟩ := litSmall_pos
  obtain ⟨q, hq⟩ := litSixth_real
  unfold c3 safe
  rw [small_coe hs τ]
  by_cases hlt : τ < s
  · refine ⟨q - τ * (1 / 120), ?_⟩
    rw [if_pos hlt]
    show litSixth - Ideal.div (τ : EReal) lit120 = _
    rw [hq, lit120_eq, Ideal.div_coe (by norm_num : (120 : ℝ) ≠ 0)]
    norm_cast
  · have hτpos : 0 < τ := lt_of_lt_of_le hs0 (not_lt.mp hlt)
    have hden : τ * Real.sqrt τ ≠ 0 := mul_ne_zero hτpos.ne' (Real.sqrt_pos.mpr hτpos).ne'
    refine ⟨(Real.sqrt τ - Real.sin (Real.sqrt τ)) * (1 / (τ * Real.sqrt τ)), ?_⟩
    rw [if_neg hlt]
    show Ideal.div (Ideal.sqrt (τ : EReal) - Ideal.sin (Ideal.sqrt (τ : EReal))) ((τ : EReal) * Ideal.sqrt (τ : EReal)) = _
    rw [Ideal.sqrt_coe, if_neg (not_lt.mpr hτ), Ideal.sin_coe, ← EReal.coe_mul, Ideal.div_coe hden]
    norm_cast

/-! ## The two forms of the result, entry by entry -/

/-- θ² = |w|², as the closed form adds it. -/
def th2 (x0 x1 x2 : EReal) : EReal := x0 * x0 + x1 * x1 + x2 * x2

/-- The closed form: entry `j` of the flattened 4×4 result (row-major) from the six entries of the twist. -/
def kernelEntry (x0 x1 x2 x3 x4 x5 : EReal) (j : Fin 16) : EReal :=
  let t := th2 x0 x1 x2
  let k2 := c2 t
  let k3 := c3 t
  let a0 := lit1 - k2 * t
  let a1 := lit1 - k3 * t
  let d := x0 * x3 + x1 * x4 + x2 * x5
  match j with
  | ⟨0, _⟩ => a0 + k2 * x0 * x0
  | ⟨1, _⟩ => (lit0 - a1) * x2 + k2 * x0 * x1
  | ⟨2, _⟩ => a1 * x1 + k2 * x0 * x2
  | ⟨3, _⟩ => a1 * x3 + k2 * (x1 * x5 - x2 * x4) + k3 * d * x0
  | ⟨4, _⟩ => a1 * x2 + k2 * x1 * x0
  | ⟨5, _⟩ => a0 + k2 * x1 * x1
  | ⟨6, _⟩ => (lit0 - a1) * x0 + k2 * x1 * x2
  | ⟨7, _⟩ => a1 * x4 + k2 * (x2 * x3 - x0 * x5) + k3 * d * x1
  | ⟨8, _⟩ => (lit0 - a1) * x1 + k2 * x2 * x0
  | ⟨9, _⟩ => a1 * x0 + k2 * x2 * x1
  | ⟨10, _⟩ => a0 + k2 * x2 * x2
  | ⟨11, _⟩ => a1 * x5 + k2 * (x0 * x4 - x1 * x3) + k3 * d * x2
  | ⟨12, _⟩ => lit0
  | ⟨13, _⟩ => lit0
  | ⟨14, _⟩ => lit0
  | ⟨15, _⟩ => lit1
  | ⟨n + 16, h⟩ => absurd h (by omega)

/-- The hat matrix, `hat … i j` its entry in row `i` and column `j`; it is assembled column by column, each entry first
    multiplied by the scale 1. -/
def hat (x0 x1 x2 x3 x4 x5 : EReal) (i j : Fin 4) : EReal :=
  (![![lit0, x2 * lit1, -(x1 * lit1), lit0],
     ![-(x2 * lit1), lit0, x0 * lit1, lit0],
     ![x1 * lit1, -(x0 * lit1), lit0, lit0],
     ![x3 * lit1, x4 * lit1, x5 * lit1, lit0]] j) i

/-- The identity matrix's entry. -/
def eye (i k : Fin 4) : EReal := if i = k then 1 else 0

/-- θ² as a sum over the rotation vector's three scaled entries, from the initial value 0. -/
def th2Sum (x0 x1 x2 : EReal) : EReal :=
  lit0 + ∑ q : Fin 3, (![x0, x1, x2] q * lit1) * (![x0, x1, x2] q * lit1)

/-- The series form: entry (i, k) of I + A + c2 · A² + c3 · A³, the powers as matrix products. -/
def refEntry (x0 x1 x2 x3 x4 x5 : EReal) (i k : Fin 4) : EReal :=
  eye i k + hat x0 x1 x2 x3 x4 x5 i k
    + c2 (th2Sum x0 x1 x2) * ∑ j : Fin 4, hat x0 x1 x2 x3 x4 x5 i j * hat x0 x1 x2 x3 x4 x5 j k
    + c3 (th2Sum x0 x1 x2) * ∑ j : Fin 4, (∑ l : Fin 4, hat x0 x1 x2 x3 x4 x5 i l * hat x0 x1 x2 x3 x4 x5 l j)
        * hat x0 x1 x2 x3 x4 x5 j k

theorem th2Sum_coe (a0 a1 a2 : ℝ) :
    th2Sum (a0 : EReal) a1 a2 = ((a0 * a0 + a1 * a1 + a2 * a2 : ℝ) : EReal) := by
  unfold th2Sum
  rw [lit0_eq, lit1_eq, Fin.sum_univ_three]
  simp only [Matrix.cons_val_zero, Matrix.cons_val_one, Matrix.cons_val_two, Matrix.head_cons, Matrix.tail_cons]
  norm_cast
  ring_nf

theorem th2_coe (a0 a1 a2 : ℝ) :
    th2 (a0 : EReal) a1 a2 = ((a0 * a0 + a1 * a1 + a2 * a2 : ℝ) : EReal) := by
  unfold th2; norm_cast

/-- THE IDENTITY: for a twist of real numbers the series form's entry (j / 4, j % 4) is the closed form's entry j —
    W² = w wᵀ - θ² I and W³ = -θ² W, entry by entry, as an identity of real polynomials in the six entries and the
    two (real) coefficients. -/
theorem entries_agree (a0 a1 a2 a3 a4 a5 : ℝ) (j : Fin 16) :
    refEntry (a0 : EReal) a1 a2 a3 a4 a5 ⟨j.val / 4, by omega⟩ ⟨j.val % 4, by omega⟩
      = kernelEntry (a0 : EReal) a1 a2 a3 a4 a5 j := by
  have hτ : 0 ≤ a0 * a0 + a1 * a1 + a2 * a2 :=
    add_nonneg (add_nonneg (mul_self_nonneg _) (mul_self_nonneg _)) (mul_self_nonneg _)
  obtain ⟨k2, hk2⟩ := c2_real _ hτ
  obtain ⟨k3, hk3⟩ := c3_real _ hτ
  unfold refEntry kernelEntry
  dsimp only
  rw [th2Sum_coe, th2_coe, hk2, hk3]
  fin_cases j <;>
    simp only [hat, eye, Fin.sum_univ_four, lit0_eq, lit1_eq, Nat.reduceDiv, Nat.reduceMod, Fin.reduceFinMk,
      Matrix.cons_val, Fin.reduceEq, reduceIte] <;>
    norm_num <;> norm_cast <;> ring

end Cert.Twist

end
-- ==== Proof.LibConcatUnit.lean ====
/-
  A concatenation of unit-width pieces, read at an index.

  When K arrays of shape [n, 1] are joined along the last axis into one of shape [n, K], the element at (r, j) is piece
  j's element at (r, 0); when K arrays of shape [n, m, 1] are joined along the last axis into [n, m, K], the element at
  (r, i, j) is piece j's element at (r, i, 0). Stated for the pieces as a family `f : Fin K → …` (a literal list of
  pieces is such a family's `List.ofFn` by computation), for any element type and any extents.
-/
import Idealize.ShloMosaic.Lib.Pipeline.Value
import Idealize.ShloMosaic.Lib.ValueIdx

noncomputable section

namespace Cert.ConcatUnit

open Idealize.ShloMosaic Idealize.ShloMosaic.ValueIdx

variable {α : Type}

/-- Columns joined side by side: entry (r, j) of the [n, K] result is column j at (r, 0). -/
theorem concat_cols {n K : Nat} (f : Fin K → ((⟨2, ![n, 1]⟩ : Shape).Idx → α))
    (h : Shape.Concatenates ((List.ofFn fun q : Fin K => (⟨⟨2, ![n, 1]⟩, f q⟩ : (s : Shape) × (s.Idx → α))).map (·.1))
      ⟨2, ![n, K]⟩ (1 : Fin 2))
    (r : Fin n) (j : Fin K) :
    concatenate (⟨2, ![n, K]⟩ : Shape) (1 : Fin 2)
      (List.ofFn fun q : Fin K => (⟨⟨2, ![n, 1]⟩, f q⟩ : (s : Shape) × (s.Idx → α))) h (ix2 r j) = f j (ix2 r 0) :=
  concatenate_ofFn_apply (t := ⟨2, ![n, K]⟩) (s₁ := ⟨2, ![n, 1]⟩) (1 : Fin 2) f h rfl 1 rfl (ix2 r j) j
    (by show j.val / 1 = j.val; omega) (ix2 r 0) (by show (0 : Nat) = j.val % 1; omega)
    (fun b hb => by
      match b with
      | ⟨0, _⟩ => rfl
      | ⟨1, _⟩ => exact absurd rfl hb)

/-- Unit-depth slabs joined along the last axis: entry (r, i, j) of the [n, m, K] result is slab j at (r, i, 0). -/
theorem concat_slabs {n m K : Nat} (f : Fin K → ((⟨3, ![n, m, 1]⟩ : Shape).Idx → α))
    (h : Shape.Concatenates ((List.ofFn fun q : Fin K => (⟨⟨3, ![n, m, 1]⟩, f q⟩ : (s : Shape) × (s.Idx → α))).map (·.1))
      ⟨3, ![n, m, K]⟩ (2 : Fin 3))
    (r : Fin n) (i : Fin m) (j : Fin K) :
    concatenate (⟨3, ![n, m, K]⟩ : Shape) (2 : Fin 3)
      (List.ofFn fun q : Fin K => (⟨⟨3, ![n, m, 1]⟩, f q⟩ : (s : Shape) × (s.Idx → α))) h (ix3 r i j) = f j (ix3 r i 0) :=
  concatenate_ofFn_apply (t := ⟨3, ![n, m, K]⟩) (s₁ := ⟨3, ![n, m, 1]⟩) (2 : Fin 3) f h rfl 1 rfl (ix3 r i j) j
    (by show j.val / 1 = j.val; omega) (ix3 r i 0) (by show (0 : Nat) = j.val % 1; omega)
    (fun b hb => by
      match b with
      | ⟨0, _⟩ => rfl
      | ⟨1, _⟩ => rfl
      | ⟨2, _⟩ => exact absurd rfl hb)

end Cert.ConcatUnit

end
-- ==== Proof.KernelValue.lean ====
/-
  What the kernel leaves in its result array, at the ideal values.

  The grid has 2048 points; point t loads rows 1024 t … 1024 t + 1023 of the [2097152, 6] argument, computes sixteen
  columns from the six columns of that block, lane by lane, joins them side by side and stores the [1024, 16] block
  as rows 1024 t … 1024 t + 1023 of the result. Every operation of the body is pointwise in the row, so entry (r, j) of
  the stored block is the closed form's entry j (`Cert.Twist.kernelEntry`) of row r of the loaded block (`block_at`),
  the blocks tile the result, and the result array ends holding `rows x`: row n of the result is the closed form of
  row n of the argument (`final`, `run`).
-/
import proofs.«115957_j88536455839887_2_alg».proof.Proof.Gen.KernelIdeal.Frame
import proofs.«115957_j88536455839887_2_alg».proof.Proof.TwistAlgebra
import proofs.«115957_j88536455839887_2_alg».proof.Proof.LibConcatUnit
import Idealize.ShloMosaic.Lib.Pipeline.Value
import Idealize.ShloMosaic.Lib.ValueIdx

noncomputable section

namespace Cert.KernelIdeal.TwistValue

open Cert.KernelIdeal Cert.KernelIdeal.Gen Idealize.ShloMosaic Idealize.ShloMosaic.TcCoe Idealize.SL.Sem
open Idealize.ShloMosaic.ValueIdx Cert.Twist Cert.ConcatUnit
open Idealize.ShloMosaic.Pipeline (Dat)

/-- Row by row: entry (n, j) of the result is the closed form's entry j of row n of the argument. -/
def rows (x : S2097152x6.Idx → EReal) : S2097152x16.Idx → EReal := fun i =>
  kernelEntry (x (ix2 (n0 := 2097152) (n1 := 6) (i 0) 0)) (x (ix2 (n0 := 2097152) (n1 := 6) (i 0) 1))
    (x (ix2 (n0 := 2097152) (n1 := 6) (i 0) 2)) (x (ix2 (n0 := 2097152) (n1 := 6) (i 0) 3))
    (x (ix2 (n0 := 2097152) (n1 := 6) (i 0) 4)) (x (ix2 (n0 := 2097152) (n1 := 6) (i 0) 5)) (i 1)

theorem hz : (![0, 0] : Fin 2 → Nat) = fun _ => 0 := funext fun a => by fin_cases a <;> rfl

/-! ## The body's sixteen columns, lane by lane -/

section Body
variable (P : Vec Ideal S1024x6 .f32)

/-- Column k of the loaded block, as a [1024, 1] vector read at row r, is the block's entry (r, k). -/
theorem col0 (r : Fin 1024) : k0_pay3 P (ix2 r 0) = P (ix2 r 0) := by
  unfold k0_pay3
  exact extractStridedSlice_apply ![0, 0] P slices_S1024x6_o0_0_S1024x1 (ix2 r 0) (ix2 r 0) fun a => by
    match a with
    | ⟨0, _⟩ => show r.val = 0 + r.val; omega
    | ⟨1, _⟩ => rfl
theorem col1 (r : Fin 1024) : k0_pay4 P (ix2 r 0) = P (ix2 r 1) := by
  unfold k0_pay4
  exact extractStridedSlice_apply ![0, 1] P slices_S1024x6_o0_1_S1024x1 (ix2 r 0) (ix2 r 1) fun a => by
    match a with
    | ⟨0, _⟩ => show r.val = 0 + r.val; omega
    | ⟨1, _⟩ => rfl
theorem col2 (r : Fin 1024) : k0_pay5 P (ix2 r 0) = P (ix2 r 2) := by
  unfold k0_pay5
  exact extractStridedSlice_apply ![0, 2] P slices_S1024x6_o0_2_S1024x1 (ix2 r 0) (ix2 r 2) fun a => by
    match a with
    | ⟨0, _⟩ => show r.val = 0 + r.val; omega
    | ⟨1, _⟩ => rfl
theorem col3 (r : Fin 1024) : k0_pay6 P (ix2 r 0) = P (ix2 r 3) := by
  unfold k0_pay6
  exact extractStridedSlice_apply ![0, 3] P slices_S1024x6_o0_3_S1024x1 (ix2 r 0) (ix2 r 3) fun a => by
    match a with
    | ⟨0, _⟩ => show r.val = 0 + r.val; omega
    | ⟨1, _⟩ => rfl
theorem col4 (r : Fin 1024) : k0_pay7 P (ix2 r 0) = P (ix2 r 4) := by
  unfold k0_pay7
  exact extractStridedSlice_apply ![0, 4] P slices_S1024x6_o0_4_S1024x1 (ix2 r 0) (ix2 r 4) fun a => by
    match a with
    | ⟨0, _⟩ => show r.val = 0 + r.val; omega
    | ⟨1, _⟩ => rfl
theorem col5 (r : Fin 1024) : k0_pay8 P (ix2 r 0) = P (ix2 r 5) := by
  unfold k0_pay8
  exact extractStridedSlice_apply ![0, 5] P slices_S1024x6_o0_5_S1024x1 (ix2 r 0) (ix2 r 5) fun a => by
    match a with
    | ⟨0, _⟩ => show r.val = 0 + r.val; omega
    | ⟨1, _⟩ => rfl

/-- The sixteen columns the body joins, in the order it joins them. -/
def pieces (v43 v49 v53 v57 v60 v66 v72 v76 v79 v99 v102 v104 v111 : FVec Ideal S1024x1 .f32) :
    Fin 16 → FVec Ideal S1024x1 .f32 :=
  ![v43, v49, v53, v99, v57, v60, v66, addf v102 v104, v72, v76, v79, v111,
    broadcast S1024x1 (Scalar.ofBits .f32 0x00000000#32), broadcast S1024x1 (Scalar.ofBits .f32 0x00000000#32),
    broadcast S1024x1 (Scalar.ofBits .f32 0x00000000#32), broadcast S1024x1 (Scalar.ofBits .f32 0x3F800000#32)]

/-- The joined block at (r, j) is column j at row r. -/
theorem joined_at (v43 v49 v53 v57 v60 v66 v72 v76 v79 v99 v102 v104 v111 : FVec Ideal S1024x1 .f32)
    (r : Fin 1024) (j : Fin 16) :
    k0_pay2 v43 v49 v53 v57 v60 v66 v72 v76 v79 v99 v102 v104 v111 (ix2 r j)
      = pieces v43 v49 v53 v57 v60 v66 v72 v76 v79 v99 v102 v104 v111 j (ix2 r 0) := by
  unfold k0_pay2
  show concatenate S1024x16 1 (List.ofFn fun q : Fin 16 =>
    (⟨S1024x1, pieces v43 v49 v53 v57 v60 v66 v72 v76 v79 v99 v102 v104 v111 q⟩ : (s : Shape) × (s.Idx → _))) _ (ix2 r j) = _
  exact concat_cols (n := 1024) (K := 16) (pieces v43 v49 v53 v57 v60 v66 v72 v76 v79 v99 v102 v104 v111) _ r j

/-- Every operation between the six columns and the sixteen is lane by lane, so column j read at any lane is the closed
    form's entry j of the six columns read at that lane: the two sides are the same expression, operation by
    operation. -/
theorem piece_at (i : S1024x1.Idx) (j : Fin 16) :
    pieces (k0_pay17 P) (k0_pay19 (k0_pay3 P) (k0_pay4 P) (k0_pay13 P) (k0_pay18 P))
      (k0_pay20 (k0_pay3 P) (k0_pay4 P) (k0_pay5 P) (k0_pay13 P) (k0_pay16 P))
      (k0_pay21 (k0_pay3 P) (k0_pay4 P) (k0_pay5 P) (k0_pay13 P) (k0_pay16 P))
      (k0_pay22 (k0_pay4 P) (k0_pay13 P) (k0_pay15 P))
      (k0_pay23 (k0_pay3 P) (k0_pay4 P) (k0_pay5 P) (k0_pay13 P) (k0_pay16 P))
      (k0_pay24 (k0_pay3 P) (k0_pay4 P) (k0_pay5 P) (k0_pay13 P) (k0_pay16 P))
      (k0_pay25 (k0_pay3 P) (k0_pay4 P) (k0_pay5 P) (k0_pay13 P) (k0_pay16 P))
      (k0_pay26 (k0_pay5 P) (k0_pay13 P) (k0_pay15 P))
      (k0_pay29 (k0_pay3 P) (k0_pay4 P) (k0_pay5 P) (k0_pay6 P) (k0_pay7 P) (k0_pay8 P) (k0_pay13 P) (k0_pay14 P) (k0_pay16 P))
      (k0_pay30 (k0_pay3 P) (k0_pay5 P) (k0_pay6 P) (k0_pay7 P) (k0_pay8 P) (k0_pay13 P) (k0_pay16 P))
      (k0_pay31 (k0_pay3 P) (k0_pay4 P) (k0_pay5 P) (k0_pay6 P) (k0_pay7 P) (k0_pay8 P) (k0_pay14 P))
      (k0_pay1 (k0_pay5 P) (k0_pay8 P) (k0_pay13 P) (k0_pay14 P) (k0_pay16 P)
        (k0_pay27 (k0_pay3 P) (k0_pay4 P) (k0_pay6 P) (k0_pay7 P))
        (k0_pay28 (k0_pay3 P) (k0_pay4 P) (k0_pay5 P) (k0_pay6 P) (k0_pay7 P) (k0_pay8 P))) j i
      = kernelEntry (k0_pay3 P i) (k0_pay4 P i) (k0_pay5 P i) (k0_pay6 P i) (k0_pay7 P i) (k0_pay8 P i) j := by
  fin_cases j <;> rfl

/-- WHAT THE BODY LEAVES IN THE OUTPUT BLOCK: entry (r, j) is the closed form's entry j of row r of the loaded block. -/
theorem block_at (y : S1024x16.Idx) :
    out0_1 P y = kernelEntry (P (ix2 (n0 := 1024) (n1 := 6) (y 0) 0)) (P (ix2 (n0 := 1024) (n1 := 6) (y 0) 1))
      (P (ix2 (n0 := 1024) (n1 := 6) (y 0) 2)) (P (ix2 (n0 := 1024) (n1 := 6) (y 0) 3))
      (P (ix2 (n0 := 1024) (n1 := 6) (y 0) 4)) (P (ix2 (n0 := 1024) (n1 := 6) (y 0) 5)) (y 1) := by
  obtain ⟨r, j, rfl⟩ : ∃ (r : Fin 1024) (j : Fin 16), y = ix2 r j := ⟨y 0, y 1, eq_ix2 y⟩
  unfold out0_1
  rw [View.canon_unit_zero hz]
  simp only [View.ld_unit_zero (S := S1024x6) hz]
  rw [joined_at, piece_at, col0, col1, col2, col3, col4, col5]

end Body

/-! ## From blocks to the array -/

variable (m : (ℓ : Loc nD τ sig) → Buf (Elt Ideal) ℓ) (ρ : Dev nD → PrngReg)

/-- The two index maps, decided over the grid: at point t both windows sit at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The input block at point t is rows 1024 t … 1024 t + 1023 of the argument. -/
theorem iblk_at (c : Dev nD) (t : Fin cfg0.N) (z : S1024x6.Idx) (i : S2097152x6.Idx)
    (h0 : (i 0).val = t.val * 1024 + (z 0).val) (h1 : (i 1).val = (z 1).val) :
    (iblk m c 0 t : Vec Ideal S1024x6 .f32) z = (m ((c : Thread nD τ).loc main_arg0) : S2097152x6.Idx → EReal) i := by
  obtain ⟨e00, e01, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * (z 0).val = (i 0).val; rw [e00, h0]; omega
  | ⟨1, _⟩ => show win0_0.index t 1 * 6 + 1 * (z 1).val = (i 1).val; rw [e01, h1]; omega

/-- WHAT POINT t WRITES BACK is block t of `rows` of the argument. -/
theorem flushed_eq (c : Dev nD) (t : Fin cfg0.N) :
    (dats m 0 c).flushed 1 t
      = ((cfg0.win 1).blk t).view.read (Elt Ideal) (rows (m ((c : Thread nD τ).loc main_arg0))) := by
  show (cfg0.win 1).cut (grid0.coords t) ((dats m 0 c).after 1 t) = _
  rw [after0_1]
  obtain ⟨-, -, e10, e11⟩ := idx_facts t
  funext y
  refine (block_at (iblk m c 0 t) y).trans ?_
  show _ = rows (m ((c : Thread nD τ).loc main_arg0)) (((cfg0.win 1).blk t).view.emb y)
  have hy0 : ((((cfg0.win 1).blk t).view.emb y) 0).val = t.val * 1024 + (y 0).val := by
    show win0_1.index t 0 * 1024 + 1 * (y 0).val = _; rw [e10]; omega
  have hy1 : (((cfg0.win 1).blk t).view.emb y) 1 = y 1 := by
    apply Fin.ext; show win0_1.index t 1 * 16 + 1 * (y 1).val = (y 1).val; rw [e11]; omega
  unfold rows
  rw [hy1,
    iblk_at m c t (ix2 (y 0) 0) (ix2 ((((cfg0.win 1).blk t).view.emb y) 0) 0) hy0 rfl,
    iblk_at m c t (ix2 (y 0) 1) (ix2 ((((cfg0.win 1).blk t).view.emb y) 0) 1) hy0 rfl,
    iblk_at m c t (ix2 (y 0) 2) (ix2 ((((cfg0.win 1).blk t).view.emb y) 0) 2) hy0 rfl,
    iblk_at m c t (ix2 (y 0) 3) (ix2 ((((cfg0.win 1).blk t).view.emb y) 0) 3) hy0 rfl,
    iblk_at m c t (ix2 (y 0) 4) (ix2 ((((cfg0.win 1).blk t).view.emb y) 0) 4) hy0 rfl,
    iblk_at m c t (ix2 (y 0) 5) (ix2 ((((cfg0.win 1).blk t).view.emb y) 0) 5) hy0 rfl]

/-- Row n of the result lies in the block of point n / 1024: the blocks cover the array. -/
theorem covered (i : S2097152x16.Idx) :
    ∃ t : Fin cfg0.N, (cfg0.win 1).flush t = true ∧ i ∈ ((cfg0.win 1).blk t).view.set := by
  have hi0 : (i 0).val < 2097152 := (i 0).isLt
  have hi1 : (i 1).val < 16 := (i 1).isLt
  have hN : cfg0.N = 2048 := N_0
  let t : Fin cfg0.N := ⟨(i 0).val / 1024, by rw [hN]; omega⟩
  obtain ⟨-, -, e10, e11⟩ := idx_facts t
  refine ⟨t, flush0_1 t, ?_⟩
  show i ∈ ((View.whole main_v0).slice (win0_1.rect t)).set
  rw [View.set_slice_whole, Rect.mem_set_unit]
  intro a
  match a with
  | ⟨0, _⟩ =>
    show win0_1.index t 0 * 1024 ≤ (i 0).val ∧ (i 0).val < win0_1.index t 0 * 1024 + 1024
    rw [e10]; show (i 0).val / 1024 * 1024 ≤ (i 0).val ∧ (i 0).val < (i 0).val / 1024 * 1024 + 1024; omega
  | ⟨1, _⟩ =>
    show win0_1.index t 1 * 16 ≤ (i 1).val ∧ (i 1).val < win0_1.index t 1 * 16 + 16
    rw [e11]; omega

/-- THE RESULT ARRAY after the run: row n is the closed form of row n of the argument. -/
theorem final (c : Dev nD) :
    (dats m 0 c).arrAt 1 cfg0.N = rows (m ((c : Thread nD τ).loc main_arg0)) :=
  (dats m 0 c).arrAt_eq_of_cover 1 (rows (m ((c : Thread nD τ).loc main_arg0))) (fun t _ => flushed_eq m c t) covered

/-- The run, read: every weakly fair execution terminates with the result array at `rows` of the argument and the
    argument unchanged — the result array is the one the blocks written back add up to (`final`), the argument is only
    ever read. -/
theorem run : θ_run defs (onTc (τ := τ) (main (F := Ideal))) ⟨m, fun _ => 0, ρ⟩ fun r => ∀ c : Dev nD,
      r.2.mem ((c : Thread nD τ).loc main_v0) = rows (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.TwistValue

end
-- ==== Proof.RefValue.lean ====
/-
  What the reference computes, entry by entry, at the ideal values.

  The reference scales the rotation and translation parts of every row by 1, builds the hat matrix A of the row column
  by column (four [N, 4] columns, joined into [N, 4, 4]), forms A² and A³ as batched matrix products, θ² as a sum over
  the scaled rotation vector, the two coefficients from θ², and I + A + c2 · A² + c3 · A³, flattened to [N, 16]. Read at
  an index, each stage depends on one row only: the hat matrix's entry (`hat_any`), the products as sums over the
  middle index (`sq_any`, `cube_any`), θ² (`th2_any`), the coefficients (`c2_any`, `c3_any`), the identity's entry
  (`eye_any`), and so the result's entry (n, j) is `Cert.Twist.refEntry` of row n at (j / 4, j % 4) (`result_any`).
-/
import proofs.«115957_j88536455839887_2_alg».proof.Proof.Gen.ReferenceIdeal.Read
import proofs.«115957_j88536455839887_2_alg».proof.Proof.TwistAlgebra
import proofs.«115957_j88536455839887_2_alg».proof.Proof.LibConcatUnit
import Idealize.ShloMosaic.Lib.Pipeline.Value
import Idealize.ShloMosaic.Lib.ValueIdx

noncomputable section

open scoped BigOperators

namespace Cert.ReferenceIdeal.TwistRef

open Cert.ReferenceIdeal Cert.ReferenceIdeal.Gen Cert.ReferenceIdeal.Read Idealize.ShloMosaic Idealize.ShloMosaic.TcCoe
open Idealize.ShloMosaic.ValueIdx Cert.Twist Cert.ConcatUnit

variable (x : S2097152x6.Idx → EReal)

/-- Entry k of row n of the argument. -/
abbrev ent (n : Fin 2097152) (k : Fin 6) : EReal := x (ix2 (n0 := 2097152) (n1 := 6) n k)

/-! ## The scaled entries of a row, as [N] arrays -/

theorem w0_any (i : S2097152.Idx) : val_main_v7 (F := Ideal) x i = ent x ⟨(i 0).val, (i 0).isLt⟩ 0 * lit1 := by
  rw [val_main_v7_apply, val_main_v6_apply, val_main_v2_apply, val_main_v0_apply, val_main_v1_apply, val_main_cst_apply]
  have e : idx_main_v0 (idx_main_v6 (idx_main_v7 i)) = ix2 (n0 := 2097152) (n1 := 6) ⟨(i 0).val, (i 0).isLt⟩ 0 := by
    funext a; apply Fin.ext
    match a with
    | ⟨0, _⟩ => show (i 0).val / 1 = (i 0).val; omega
    | ⟨1, _⟩ => rfl
  rw [e]; rfl

theorem w1_any (i : S2097152.Idx) : val_main_v9 (F := Ideal) x i = ent x ⟨(i 0).val, (i 0).isLt⟩ 1 * lit1 := by
  rw [val_main_v9_apply, val_main_v8_apply, val_main_v2_apply, val_main_v0_apply, val_main_v1_apply, val_main_cst_apply]
  have e : idx_main_v0 (idx_main_v8 (idx_main_v9 i)) = ix2 (n0 := 2097152) (n1 := 6) ⟨(i 0).val, (i 0).isLt⟩ 1 := by
    funext a; apply Fin.ext
    match a with
    | ⟨0, _⟩ => show (i 0).val / 1 = (i 0).val; omega
    | ⟨1, _⟩ => rfl
  rw [e]; rfl

theorem w2_any (i : S2097152.Idx) : val_main_v11 (F := Ideal) x i = ent x ⟨(i 0).val, (i 0).isLt⟩ 2 * lit1 := by
  rw [val_main_v11_apply, val_main_v10_apply, val_main_v2_apply, val_main_v0_apply, val_main_v1_apply, val_main_cst_apply]
  have e : idx_main_v0 (idx_main_v10 (idx_main_v11 i)) = ix2 (n0 := 2097152) (n1 := 6) ⟨(i 0).val, (i 0).isLt⟩ 2 := by
    funext a; apply Fin.ext
    match a with
    | ⟨0, _⟩ => show (i 0).val / 1 = (i 0).val; omega
    | ⟨1, _⟩ => rfl
  rw [e]; rfl

theorem u0_any (i : S2097152.Idx) : val_main_v32 (F := Ideal) x i = ent x ⟨(i 0).val, (i 0).isLt⟩ 3 * lit1 := by
  rw [val_main_v32_apply, val_main_v31_apply, val_main_v5_apply, val_main_v3_apply, val_main_v4_apply, val_main_cst_0_apply]
  have e : idx_main_v3 (idx_main_v31 (idx_main_v32 i)) = ix2 (n0 := 2097152) (n1 := 6) ⟨(i 0).val, (i 0).isLt⟩ 3 := by
    funext a; apply Fin.ext
    match a with
    | ⟨0, _⟩ => show (i 0).val / 1 = (i 0).val; omega
    | ⟨1, _⟩ => rfl
  rw [e]; rfl

theorem u1_any (i : S2097152.Idx) : val_main_v34 (F := Ideal) x i = ent x ⟨(i 0).val, (i 0).isLt⟩ 4 * lit1 := by
  rw [val_main_v34_apply, val_main_v33_apply, val_main_v5_apply, val_main_v3_apply, val_main_v4_apply, val_main_cst_0_apply]
  have e : idx_main_v3 (idx_main_v33 (idx_main_v34 i)) = ix2 (n0 := 2097152) (n1 := 6) ⟨(i 0).val, (i 0).isLt⟩ 4 := by
    funext a; apply Fin.ext
    match a with
    | ⟨0, _⟩ => show (i 0).val / 1 = (i 0).val; omega
    | ⟨1, _⟩ => rfl
  rw [e]; rfl

theorem u2_any (i : S2097152.Idx) : val_main_v36 (F := Ideal) x i = ent x ⟨(i 0).val, (i 0).isLt⟩ 5 * lit1 := by
  rw [val_main_v36_apply, val_main_v35_apply, val_main_v5_apply, val_main_v3_apply, val_main_v4_apply, val_main_cst_0_apply]
  have e : idx_main_v3 (idx_main_v35 (idx_main_v36 i)) = ix2 (n0 := 2097152) (n1 := 6) ⟨(i 0).val, (i 0).isLt⟩ 5 := by
    funext a; apply Fin.ext
    match a with
    | ⟨0, _⟩ => show (i 0).val / 1 = (i 0).val; omega
    | ⟨1, _⟩ => rfl
  rw [e]; rfl

/-- The zero array. -/
theorem z_any (i : S2097152.Idx) : val_main_v12 (F := Ideal) i = lit0 := by
  rw [val_main_v12_apply, val_main_cst_1_apply]; rfl

theorem nw0_any (i : S2097152.Idx) : val_main_v25 (F := Ideal) x i = -(ent x ⟨(i 0).val, (i 0).isLt⟩ 0 * lit1) := by
  rw [val_main_v25_apply, w0_any]; rfl
theorem nw1_any (i : S2097152.Idx) : val_main_v13 (F := Ideal) x i = -(ent x ⟨(i 0).val, (i 0).isLt⟩ 1 * lit1) := by
  rw [val_main_v13_apply, w1_any]; rfl
theorem nw2_any (i : S2097152.Idx) : val_main_v19 (F := Ideal) x i = -(ent x ⟨(i 0).val, (i 0).isLt⟩ 2 * lit1) := by
  rw [val_main_v19_apply, w2_any]; rfl

/-! ## The hat matrix, column by column -/

/-- Column 0 of the hat matrix, (0, w2, -w1, 0), as an [N, 4] array. -/
theorem colA0_any (i : S2097152x4.Idx) : val_main_v18 (F := Ideal) x i
    = ![lit0, ent x ⟨(i 0).val, (i 0).isLt⟩ 2 * lit1, -(ent x ⟨(i 0).val, (i 0).isLt⟩ 1 * lit1), lit0] (i 1) := by
  obtain ⟨n, q, rfl⟩ : ∃ (n : Fin 2097152) (q : Fin 4), i = ix2 n q := ⟨i 0, i 1, eq_ix2 i⟩
  unfold val_main_v18
  show concatenate S2097152x4 1 (List.ofFn fun k : Fin 4 =>
    (⟨S2097152x1, ![val_main_v14 (F := Ideal), val_main_v15 (F := Ideal) x, val_main_v16 (F := Ideal) x,
      val_main_v17 (F := Ideal)] k⟩ : (s : Shape) × (s.Idx → _))) _ (ix2 n q) = _
  refine (concat_cols (n := 2097152) (K := 4) _ _ n q).trans ?_
  fin_cases q
  · exact (val_main_v14_apply (F := Ideal) (ix2 n 0)).trans (z_any _)
  · exact (val_main_v15_apply (F := Ideal) x _).trans (w2_any x _)
  · exact (val_main_v16_apply (F := Ideal) x _).trans (nw1_any x _)
  · exact (val_main_v17_apply (F := Ideal) (ix2 n 0)).trans (z_any _)

/-- Column 1, (-w2, 0, w0, 0). -/
theorem colA1_any (i : S2097152x4.Idx) : val_main_v24 (F := Ideal) x i
    = ![-(ent x ⟨(i 0).val, (i 0).isLt⟩ 2 * lit1), lit0, ent x ⟨(i 0).val, (i 0).isLt⟩ 0 * lit1, lit0] (i 1) := by
  obtain ⟨n, q, rfl⟩ : ∃ (n : Fin 2097152) (q : Fin 4), i = ix2 n q := ⟨i 0, i 1, eq_ix2 i⟩
  unfold val_main_v24
  show concatenate S2097152x4 1 (List.ofFn fun k : Fin 4 =>
    (⟨S2097152x1, ![val_main_v20 (F := Ideal) x, val_main_v21 (F := Ideal), val_main_v22 (F := Ideal) x,
      val_main_v23 (F := Ideal)] k⟩ : (s : Shape) × (s.Idx → _))) _ (ix2 n q) = _
  refine (concat_cols (n := 2097152) (K := 4) _ _ n q).trans ?_
  fin_cases q
  · exact (val_main_v20_apply (F := Ideal) x _).trans (nw2_any x _)
  · exact (val_main_v21_apply (F := Ideal) (ix2 n 0)).trans (z_any _)
  · exact (val_main_v22_apply (F := Ideal) x _).trans (w0_any x _)
  · exact (val_main_v23_apply (F := Ideal) (ix2 n 0)).trans (z_any _)

/-- Column 2, (w1, -w0, 0, 0). -/
theorem colA2_any (i : S2097152x4.Idx) : val_main_v30 (F := Ideal) x i
    = ![ent x ⟨(i 0).val, (i 0).isLt⟩ 1 * lit1, -(ent x ⟨(i 0).val, (i 0).isLt⟩ 0 * lit1), lit0, lit0] (i 1) := by
  obtain ⟨n, q, rfl⟩ : ∃ (n : Fin 2097152) (q : Fin 4), i = ix2 n q := ⟨i 0, i 1, eq_ix2 i⟩
  unfold val_main_v30
  show concatenate S2097152x4 1 (List.ofFn fun k : Fin 4 =>
    (⟨S2097152x1, ![val_main_v26 (F := Ideal) x, val_main_v27 (F := Ideal) x, val_main_v28 (F := Ideal),
      val_main_v29 (F := Ideal)] k⟩ : (s : Shape) × (s.Idx → _))) _ (ix2 n q) = _
  refine (concat_cols (n := 2097152) (K := 4) _ _ n q).trans ?_
  fin_cases q
  · exact (val_main_v26_apply (F := Ideal) x _).trans (w1_any x _)
  · exact (val_main_v27_apply (F := Ideal) x _).trans (nw0_any x _)
  · exact (val_main_v28_apply (F := Ideal) (ix2 n 0)).trans (z_any _)
  · exact (val_main_v29_apply (F := Ideal) (ix2 n 0)).trans (z_any _)

/-- Column 3, the scaled translation (t0, t1, t2, 0). -/
theorem colA3_any (i : S2097152x4.Idx) : val_main_v41 (F := Ideal) x i
    = ![ent x ⟨(i 0).val, (i 0).isLt⟩ 3 * lit1, ent x ⟨(i 0).val, (i 0).isLt⟩ 4 * lit1, ent x ⟨(i 0).val, (i 0).isLt⟩ 5 * lit1, lit0] (i 1) := by
  obtain ⟨n, q, rfl⟩ : ∃ (n : Fin 2097152) (q : Fin 4), i = ix2 n q := ⟨i 0, i 1, eq_ix2 i⟩
  unfold val_main_v41
  show concatenate S2097152x4 1 (List.ofFn fun k : Fin 4 =>
    (⟨S2097152x1, ![val_main_v37 (F := Ideal) x, val_main_v38 (F := Ideal) x, val_main_v39 (F := Ideal) x,
      val_main_v40 (F := Ideal)] k⟩ : (s : Shape) × (s.Idx → _))) _ (ix2 n q) = _
  refine (concat_cols (n := 2097152) (K := 4) _ _ n q).trans ?_
  fin_cases q
  · exact (val_main_v37_apply (F := Ideal) x _).trans (u0_any x _)
  · exact (val_main_v38_apply (F := Ideal) x _).trans (u1_any x _)
  · exact (val_main_v39_apply (F := Ideal) x _).trans (u2_any x _)
  · exact (val_main_v40_apply (F := Ideal) (ix2 n 0)).trans (z_any _)

/-- The hat matrix of a row. -/
abbrev hatRow (n : Fin 2097152) (i j : Fin 4) : EReal :=
  hat (ent x n 0) (ent x n 1) (ent x n 2) (ent x n 3) (ent x n 4) (ent x n 5) i j

/-- THE [N, 4, 4] ARRAY A at (n, i, j) is the hat matrix of row n at (i, j). -/
theorem hat_at (n : Fin 2097152) (i j : Fin 4) : val_main_v46 (F := Ideal) x (ix3 n i j) = hatRow x n i j := by
  unfold val_main_v46
  show concatenate S2097152x4x4 2 (List.ofFn fun k : Fin 4 =>
    (⟨S2097152x4x1, ![val_main_v42 (F := Ideal) x, val_main_v43 (F := Ideal) x, val_main_v44 (F := Ideal) x,
      val_main_v45 (F := Ideal) x] k⟩ : (s : Shape) × (s.Idx → _))) _ (ix3 n i j) = _
  refine (concat_slabs (n := 2097152) (m := 4) (K := 4) _ _ n i j).trans ?_
  unfold hatRow hat
  fin_cases j
  · exact (val_main_v42_apply (F := Ideal) x _).trans (colA0_any x _)
  · exact (val_main_v43_apply (F := Ideal) x _).trans (colA1_any x _)
  · exact (val_main_v44_apply (F := Ideal) x _).trans (colA2_any x _)
  · exact (val_main_v45_apply (F := Ideal) x _).trans (colA3_any x _)

/-! ## θ², the two coefficients, the identity matrix -/

/-- θ² of a row: the initial value 0 plus the three squares of the scaled rotation entries. -/
theorem th2_any (i : S2097152.Idx) :
    val_main_v50 (F := Ideal) x i = th2Sum (ent x ⟨(i 0).val, (i 0).isLt⟩ 0) (ent x ⟨(i 0).val, (i 0).isLt⟩ 1) (ent x ⟨(i 0).val, (i 0).isLt⟩ 2) := by
  rw [val_main_v50_apply, val_main_cst_2_apply]
  unfold th2Sum
  rw [Fin.sum_univ_three, Fin.sum_univ_three]
  simp only [val_main_v49_apply, val_main_v2_apply, val_main_v0_apply, val_main_v1_apply, val_main_cst_apply]
  have e0 : idx_main_v0 (idx_main_v50 i 0) = ix2 (n0 := 2097152) (n1 := 6) ⟨(i 0).val, (i 0).isLt⟩ 0 := by
    funext a; apply Fin.ext
    match a with
    | ⟨0, _⟩ => rfl
    | ⟨1, _⟩ => rfl
  have e1 : idx_main_v0 (idx_main_v50 i 1) = ix2 (n0 := 2097152) (n1 := 6) ⟨(i 0).val, (i 0).isLt⟩ 1 := by
    funext a; apply Fin.ext
    match a with
    | ⟨0, _⟩ => rfl
    | ⟨1, _⟩ => rfl
  have e2 : idx_main_v0 (idx_main_v50 i 2) = ix2 (n0 := 2097152) (n1 := 6) ⟨(i 0).val, (i 0).isLt⟩ 2 := by
    funext a; apply Fin.ext
    match a with
    | ⟨0, _⟩ => rfl
    | ⟨1, _⟩ => rfl
  rw [e0, e1, e2]
  rfl

/-- The comparison of a row's θ² with the threshold. -/
theorem small_any (i : S2097152.Idx) : val_main_v52 (F := Ideal) x i = small (val_main_v50 (F := Ideal) x i) := by
  rw [val_main_v52_apply, val_main_v51_apply, val_main_cst_3_apply]
  rfl

/-- The safe denominator of a row. -/
theorem safe_any (i : S2097152.Idx) : val_main_v53 (F := Ideal) x i = safe (val_main_v50 (F := Ideal) x i) := by
  rw [val_main_v53_apply, small_any, val_main_call0_v1_apply, val_main_call0_v0_apply, val_main_cst_4_apply]
  rfl

/-- The first coefficient of a row is `c2` of the row's θ²: the same selections, square root, cosine and quotients,
    operation by operation. -/
theorem c2_any (i : S2097152.Idx) : val_main_v63 (F := Ideal) x i = c2 (val_main_v50 (F := Ideal) x i) := by
  rw [val_main_v63_apply, val_main_v58_apply, val_main_v62_apply, val_main_v61_apply, val_main_v59_apply,
    val_main_v54_apply, val_main_v56_apply, val_main_v57_apply, val_main_v55_apply, val_main_v60_apply, small_any,
    safe_any, val_main_cst_5_apply, val_main_cst_6_apply, val_main_cst_7_apply]
  generalize val_main_v50 (F := Ideal) x i = t
  rfl

/-- Likewise the second coefficient is `c3` of the row's θ². -/
theorem c3_any (i : S2097152.Idx) : val_main_v72 (F := Ideal) x i = c3 (val_main_v50 (F := Ideal) x i) := by
  rw [val_main_v72_apply, val_main_v67_apply, val_main_v71_apply, val_main_v70_apply, val_main_v69_apply,
    val_main_v68_apply, val_main_v54_apply, val_main_v65_apply, val_main_v66_apply, val_main_v64_apply, small_any,
    safe_any, val_main_cst_8_apply, val_main_cst_9_apply]
  generalize val_main_v50 (F := Ideal) x i = t
  rfl

/-- The word "row index = column index" converted to a float is the identity matrix's entry. -/
theorem eye_word (a b : Fin 4) :
    FloatOps.uitofp (F := Ideal) .f32 (IntOp.cmpi .eq (IntOp.addi (BitVec.ofNat 32 a.val) 0#32) (BitVec.ofNat 32 b.val))
      = eye a b := by
  fin_cases a <;> fin_cases b <;>
    first
    | (show (((1 : ℕ) : ℝ) : EReal) = _; simp [eye])
    | (show (((0 : ℕ) : ℝ) : EReal) = _; simp [eye])

theorem eye_at (n : Fin 2097152) (a b : Fin 4) : val_main_v80 (F := Ideal) (ix3 n a b) = eye a b := by
  rw [val_main_v80_apply, val_main_v79_apply, val_main_v78_apply, val_main_v77_apply, val_main_v76_apply,
    val_main_v73_apply, val_main_v74_apply, val_main_v75_apply, val_main_c_apply]
  exact eye_word a b

/-! ## The powers of the hat matrix, and the result -/

/-- A² at (n, i, k): the sum over the middle index of the hat matrix's products. -/
theorem sq_at (n : Fin 2097152) (i k : Fin 4) :
    val_main_v47 (F := Ideal) x (ix3 n i k) = ∑ j : Fin 4, hatRow x n i j * hatRow x n j k := by
  rw [val_main_v47_apply]
  refine Finset.sum_congr rfl fun j _ => ?_
  have el : lidx_main_v47 (ix3 n i k) j = ix3 n i j := by
    funext a
    match a with
    | ⟨0, _⟩ => rfl
    | ⟨1, _⟩ => rfl
    | ⟨2, _⟩ => rfl
  have er : ridx_main_v47 (ix3 n i k) j = ix3 n j k := by
    funext a
    match a with
    | ⟨0, _⟩ => rfl
    | ⟨1, _⟩ => rfl
    | ⟨2, _⟩ => rfl
  rw [el, er, hat_at, hat_at]

/-- A³ = A² · A at (n, i, k). -/
theorem cube_at (n : Fin 2097152) (i k : Fin 4) :
    val_main_v48 (F := Ideal) x (ix3 n i k)
      = ∑ j : Fin 4, (∑ l : Fin 4, hatRow x n i l * hatRow x n l j) * hatRow x n j k := by
  rw [val_main_v48_apply]
  refine Finset.sum_congr rfl fun j _ => ?_
  have el : lidx_main_v48 (ix3 n i k) j = ix3 n i j := by
    funext a
    match a with
    | ⟨0, _⟩ => rfl
    | ⟨1, _⟩ => rfl
    | ⟨2, _⟩ => rfl
  have er : ridx_main_v48 (ix3 n i k) j = ix3 n j k := by
    funext a
    match a with
    | ⟨0, _⟩ => rfl
    | ⟨1, _⟩ => rfl
    | ⟨2, _⟩ => rfl
  rw [el, er, sq_at, hat_at]

/-- I + A + c2 · A² + c3 · A³ at (n, i, k) is the series form's entry (i, k) of row n. -/
theorem entry_at (n : Fin 2097152) (i k : Fin 4) :
    val_main_v89 (F := Ideal) x (ix3 n i k)
      = refEntry (ent x n 0) (ent x n 1) (ent x n 2) (ent x n 3) (ent x n 4) (ent x n 5) i k := by
  rw [val_main_v89_apply, val_main_v85_apply, val_main_v81_apply, val_main_v88_apply, val_main_v84_apply,
    val_main_v87_apply, val_main_v86_apply, val_main_v83_apply, val_main_v82_apply, c2_any, c3_any, th2_any,
    eye_at, hat_at, sq_at, cube_at]
  rfl

/-- THE RESULT at (n, j), after the flattening: the series form's entry (j / 4, j % 4) of row n. -/
theorem result_at (n : Fin 2097152) (j : Fin 16) :
    val_main_v90 (F := Ideal) x (ix2 n j)
      = refEntry (ent x n 0) (ent x n 1) (ent x n 2) (ent x n 3) (ent x n 4) (ent x n 5)
          ⟨j.val / 4, by omega⟩ ⟨j.val % 4, by omega⟩ := by
  have h0 : n.val < 2097152 := n.isLt
  have h1 : j.val < 16 := j.isLt
  rw [val_main_v90_apply]
  have e : idx_main_v90 (ix2 n j) = ix3 n (⟨j.val / 4, by omega⟩ : Fin 4) (⟨j.val % 4, by omega⟩ : Fin 4) := by
    funext a; apply Fin.ext
    match a with
    | ⟨0, _⟩ => show (n.val * 16 + j.val) / 16 = n.val; omega
    | ⟨1, _⟩ => show (n.val * 16 + j.val) / 4 % 4 = j.val / 4; omega
    | ⟨2, _⟩ => show (n.val * 16 + j.val) % 4 = j.val % 4; omega
  rw [e, entry_at]

end Cert.ReferenceIdeal.TwistRef

end
-- ==== Proof.FiniteRows.lean ====
/-
  The precondition read back: every entry of the argument is a real number.

  The precondition says that the array of comparisons |x| < +∞, reduced by "and" over both axes from the constant 1, is
  1. A fold by "and" that ends at 1 met a 1 at every index, so |x i| < +∞ for every index i; on the extended reals
  |x| = max x (-x) is +∞ exactly at x = ±∞, so x i is neither and is the image of a real number.
-/
import proofs.«115957_j88536455839887_2_alg».proof.Pre_finite_inputs
import proofs.«115957_j88536455839887_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- The pattern of +∞ denotes the top of the extended reals. -/
theorem ofBits_inf : Ideal.ofBits .f32 0x7F800000#32 = ⊤ := by
  simp [Ideal.ofBits, Ideal.ieee]

/-- Under the precondition every entry of the argument is a real number. -/
theorem real_of_pre (x : FVec Ideal S2097152x6 .f32) (h : fn (F := Ideal) x = fun _ => 1#1) (i : S2097152x6.Idx) :
    ∃ a : ℝ, x i = (a : EReal) := by
  have h0 := congrFun h ValueIdx.ix0
  dsimp only [fn] at h0
  have h1 := Host.reduce_andi_all _ _ _ _ _ h0 i
  have h2 : Ideal.cmp .olt (max (x i) (-(x i))) (Ideal.ofBits .f32 0x7F800000#32) = 1#1 := h1
  rw [ofBits_inf] at h2
  generalize x i = v at h2
  induction v using EReal.rec with
  | bot => simp [Ideal.cmp] at h2
  | coe a => exact ⟨a, rfl⟩
  | top => simp [Ideal.cmp] at h2

end Cert.Pre_finite_inputs.Finite

end
-- ==== Proof.lean ====
/-
  The certificate's claims for the twist-to-matrix kernel against its reference.

  Both programs map every row (w, t) of the [2097152, 6] argument to the flattened 4×4 matrix
  E = I + A + c2 · A² + c3 · A³ of the row's hat matrix A, with c2 = (1 - cos θ)/θ², c3 = (θ - sin θ)/θ³, θ² = |w|²
  (series values below a threshold). The reference forms A² and A³ as matrix products; the kernel uses the closed form
  R = (1 - c2 θ²) I + (1 - c3 θ²) W + c2 w wᵀ, V t = (1 - c3 θ²) t + c2 (w × t) + c3 (w · t) w, which rests on
  W² = w wᵀ - θ² I and W³ = -θ² W. At the ideal values the kernel's result array holds the closed form row by row
  (Proof/KernelValue.lean), the reference's holds the series form row by row (Proof/RefValue.lean), and the two are
  equal entry by entry as real polynomials in the row's six entries and the two coefficients
  (Proof/TwistAlgebra.lean) — for which every factor has to be a real number, and that is what the precondition gives
  (Proof/FiniteRows.lean): the one place where the precondition is used. The three frames are the generated ones (the
  reference's is its generated run with the result dropped), and the idealization rewrote nothing.
-/
import proofs.«115957_j88536455839887_2_alg».proof.Defs
import proofs.«115957_j88536455839887_2_alg».proof.Proof.Gen.Kernel
import proofs.«115957_j88536455839887_2_alg».proof.Proof.Gen.Kernel.Skeleton
import proofs.«115957_j88536455839887_2_alg».proof.Proof.Gen.Kernel.Launch
import proofs.«115957_j88536455839887_2_alg».proof.Proof.Gen.Kernel.Points
import proofs.«115957_j88536455839887_2_alg».proof.Proof.Gen.Kernel.Frame
import proofs.«115957_j88536455839887_2_alg».proof.Proof.Gen.KernelIdeal
import proofs.«115957_j88536455839887_2_alg».proof.Proof.Gen.KernelIdeal.Skeleton
import proofs.«115957_j88536455839887_2_alg».proof.Proof.Gen.KernelIdeal.Launch
import proofs.«115957_j88536455839887_2_alg».proof.Proof.Gen.KernelIdeal.Points
import proofs.«115957_j88536455839887_2_alg».proof.Proof.Gen.KernelIdeal.Frame
import proofs.«115957_j88536455839887_2_alg».proof.Proof.Gen.ReferenceIdeal
import proofs.«115957_j88536455839887_2_alg».proof.Proof.Gen.Pre_finite_inputs
import proofs.«115957_j88536455839887_2_alg».proof.Proof.Gen.ReferenceIdeal.Run
import proofs.«115957_j88536455839887_2_alg».proof.Proof.Gen.ReferenceIdeal.Read
import proofs.«115957_j88536455839887_2_alg».proof.Proof.TwistAlgebra
import proofs.«115957_j88536455839887_2_alg».proof.Proof.KernelValue
import proofs.«115957_j88536455839887_2_alg».proof.Proof.RefValue
import proofs.«115957_j88536455839887_2_alg».proof.Proof.FiniteRows
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- For an argument of real numbers the reference's array, the series form row by row, is the kernel's, the closed form
    row by row: at (n, j) both read row n, and the series form's entry (j / 4, j % 4) is the closed form's entry j. -/
theorem arrays_agree (x : Cert.ReferenceIdeal.S2097152x6.Idx → EReal)
    (hx : ∀ i, ∃ a : ℝ, x i = (a : EReal)) :
    Cert.ReferenceIdeal.Read.val_main_v90 (F := Ideal) x = Cert.KernelIdeal.TwistValue.rows x := by
  funext i
  obtain ⟨n, j, rfl⟩ : ∃ (n : Fin 2097152) (j : Fin 16), i = ix2 n j := ⟨i 0, i 1, eq_ix2 i⟩
  rw [Cert.ReferenceIdeal.TwistRef.result_at]
  obtain ⟨a0, h0⟩ := hx (ix2 (n0 := 2097152) (n1 := 6) n 0)
  obtain ⟨a1, h1⟩ := hx (ix2 (n0 := 2097152) (n1 := 6) n 1)
  obtain ⟨a2, h2⟩ := hx (ix2 (n0 := 2097152) (n1 := 6) n 2)
  obtain ⟨a3, h3⟩ := hx (ix2 (n0 := 2097152) (n1 := 6) n 3)
  obtain ⟨a4, h4⟩ := hx (ix2 (n0 := 2097152) (n1 := 6) n 4)
  obtain ⟨a5, h5⟩ := hx (ix2 (n0 := 2097152) (n1 := 6) n 5)
  show Cert.Twist.refEntry (x (ix2 (n0 := 2097152) (n1 := 6) n 0)) (x (ix2 (n0 := 2097152) (n1 := 6) n 1))
      (x (ix2 (n0 := 2097152) (n1 := 6) n 2)) (x (ix2 (n0 := 2097152) (n1 := 6) n 3))
      (x (ix2 (n0 := 2097152) (n1 := 6) n 4)) (x (ix2 (n0 := 2097152) (n1 := 6) n 5))
      ⟨j.val / 4, by omega⟩ ⟨j.val % 4, by omega⟩
    = Cert.Twist.kernelEntry (x (ix2 (n0 := 2097152) (n1 := 6) n 0)) (x (ix2 (n0 := 2097152) (n1 := 6) n 1))
      (x (ix2 (n0 := 2097152) (n1 := 6) n 2)) (x (ix2 (n0 := 2097152) (n1 := 6) n 3))
      (x (ix2 (n0 := 2097152) (n1 := 6) n 4)) (x (ix2 (n0 := 2097152) (n1 := 6) n 5)) j
  rw [h0, h1, h2, h3, h4, h5]
  exact Cert.Twist.entries_agree a0 a1 a2 a3 a4 a5 j

/-- At the ideal values the kernel's result array ends at the closed form of the argument's rows and the reference's at
    the series form of the rows of an argument that agrees with it; the precondition makes every entry real, and
    there the two forms are one array. -/
theorem algebraic : Cert.algebraic_KernelIdeal_ReferenceIdeal := by
  intro m ρ m' ρ' hpre hagree
  refine ⟨fun c => Cert.KernelIdeal.TwistValue.rows (m ((c.tc : Thread Cert.KernelIdeal.nD Cert.KernelIdeal.τ).loc Cert.KernelIdeal.main_arg0)),
    Cert.KernelIdeal.TwistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, hagree c]
  exact arrays_agree _ (Cert.Pre_finite_inputs.Finite.real_of_pre _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
